-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8 : Shape := ⟨1, ![8]⟩
abbrev S30000x1024 : Shape := ⟨2, ![30000, 1024]⟩
abbrev S1000x512 : Shape := ⟨2, ![1000, 512]⟩
abbrev S_ : Shape := ⟨0, ![]⟩

class Facts : Prop where
  bcast_S_S30000x1024 : S_.BroadcastsInDim S30000x1024 (![] : Fin 0 → Fin S30000x1024.rank)
  reducesTo_S30000x1024_S_d0_1 : S30000x1024.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : IVec S8 32) (main_arg1 : IVec S8 32) (main_arg2 : FVec F S30000x1024 .f32) (main_arg3 : FVec F S1000x512 .f32) : IVec S_ 1 :=
  let main_v0 : FVec F S30000x1024 .f32 := Host.absf main_arg2
  let main_cst : FVec F S_ .f32 := constant S_ .f32 0x7F800000#32
  let main_v1 : FVec F S30000x1024 .f32 := broadcastInDim S30000x1024 ![] bcast_S_S30000x1024 main_cst
  let main_v2 : IVec S30000x1024 1 := cmpf .olt main_v0 main_v1
  let main_c : IVec S_ 1 := constantI S_ 1 1#1
  let main_v3 : IVec S_ 1 := (fun x v => Host.reduce IntOp.andi x v reducesTo_S30000x1024_S_d0_1 h_S_) main_v2 main_c
  let main_v4 : FVec F S1000x512 .f32 := Host.absf main_arg3
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S8 : Shape := ⟨1, ![8]⟩
abbrev S30000x1024 : Shape := ⟨2, ![30000, 1024]⟩
abbrev S1000x512 : Shape := ⟨2, ![1000, 512]⟩
abbrev S_ : Shape := ⟨0, ![]⟩
abbrev S8x1 : Shape := ⟨2, ![8, 1]⟩
abbrev S8x1024 : Shape := ⟨2, ![8, 1024]⟩
abbrev S8x512 : Shape := ⟨2, ![8, 512]⟩
abbrev S8x30000 : Shape := ⟨2, ![8, 30000]⟩
abbrev S2048x1024 : Shape := ⟨2, ![2048, 1024]⟩
abbrev S8x2048 : Shape := ⟨2, ![8, 2048]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S512x8 : Shape := ⟨2, ![512, 8]⟩

abbrev nBuf : Space → Nat
  | .hbm => 36
  | .vmem => 7
  | .smem => 0
  | _ => 0

abbrev bufTy : (tb : Table) → Fin (tcTables nBuf tb) → BufTy
  | .hbm, ⟨0, _⟩ => ⟨S8, .i32⟩
  | .hbm, ⟨1, _⟩ => ⟨S8, .i32⟩
  | .hbm, ⟨2, _⟩ => ⟨S30000x1024, .f32⟩
  | .hbm, ⟨3, _⟩ => ⟨S1000x512, .f32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x1024, .f32⟩
  | .hbm, ⟨13, _⟩ => ⟨S8x512, .f32⟩
  | .hbm, ⟨14, _⟩ => ⟨S8x512, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S8x512, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S8x512, .f32⟩
  | .hbm, ⟨33, _⟩ => ⟨S8x512, .f32⟩
  | .hbm, ⟨34, _⟩ => ⟨S8x512, .f32⟩
  | .hbm, ⟨35, _⟩ => ⟨S8x30000, .f32⟩
  | .local _ .vmem, ⟨0, _⟩ => ⟨S8x512, .f32⟩
  | .local _ .vmem, ⟨1, _⟩ => ⟨S8x512, .f32⟩
  | .local _ .vmem, ⟨2, _⟩ => ⟨S2048x1024, .f32⟩
  | .local _ .vmem, ⟨3, _⟩ => ⟨S2048x1024, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![15], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  v3
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  let v4 : BitVec 32 := v3
  let v5 : Index := Scalar.indexCast v4
  let c0_4 : Index := 0#32
  ![v5.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  let v4 : BitVec 32 := v3
  let v7 : Index := Scalar.indexCast v4
  let c512 : Index := 512#32
  ![v7.toNat, 512]
def k0_off3 (k0_t1 : Fin k0_t1_loop.trips) : Fin 2 → Nat :=
  let c0_46 : Index := 0#32
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  let v4 : BitVec 32 := v3
  let v148 : Index := Scalar.indexCast v4
  ![0, v148.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8 : S_.BroadcastsInDim S8 (![] : Fin 0 → Fin S8.rank)
  bcast_S8_S8x1_0 : S8.BroadcastsInDim S8x1 (![0] : Fin 1 → Fin S8x1.rank)
  slices_S8x1024_S8x512_0_0 : S8x1024.Slices ![0, 0] S8x512
  slices_S8x1024_S8x512_0_512 : S8x1024.Slices ![0, 512] S8x512
  bcast_S_S8x512 : S_.BroadcastsInDim S8x512 (![] : Fin 0 → Fin S8x512.rank)
  h_S512x512 : 0 < S512x512.numel
  iota_S512x1_d0_w32 : S512x1.Iotas .tc 32 [0]
  inb_S8x512_S1x512_0_0 : ∀ a, (![0, 0] : Fin 2 → Nat) a + S1x512.size a ≤ S8x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  concatenates_S512x1_S512x1_S512x1_S512x1_S512x1_S512x1_S512x1_S512x1_S512x8_d1 : Shape.Concatenates [S512x1, S512x1, S512x1, S512x1, S512x1, S512x1, S512x1, S512x1] S512x8 1
  transposes_S512x8_p1_0_S8x512 : S512x8.Transposes [1, 0] S8x512
  h_S8x512 : 0 < S8x512.numel
  shapeCasts_S8x512_S8x512 : S8x512.ShapeCasts S8x512
  inb_S8x2048_S8x2048_0_0 : ∀ a, (![0, 0] : Fin 2 → Nat) a + S8x2048.size a ≤ S8x2048.size a
  h_S8x2048 : 0 < S8x2048.numel
  gather_S30000x1024_S8x1_S8x1024_1_0_n_n_0_1_11024_wf : GatherDims.WF S30000x1024 S8x1 S8x1024 [1] [0] [] [0] [] 1 ![1, 1024]
  gather_S1000x512_S8x1_S8x512_1_0_n_n_0_1_1512_wf : GatherDims.WF S1000x512 S8x1 S8x512 [1] [0] [] [0] [] 1 ![1, 512]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S2048x1024.size a
  k0_off2_inb : ∀ k0_t1 : Fin k0_t1_loop.trips, ∀ a, (k0_off2 k0_t1) a + S512x512.size a ≤ S2048x1024.size a
  k0_off3_inb : ∀ k0_t1 : Fin k0_t1_loop.trips, ∀ a, (k0_off3 k0_t1) a + S8x512.size a ≤ S8x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x512.size a
  hwx0_0 : ∀ i : grid0.Coords, EltTy.bits .f32 = 32 ∨ (Rect.block (s := S8x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x1024.size a < S30000x1024.size a
  hwx0_2 : ∀ i : grid0.Coords, EltTy.bits .f32 = 32 ∨ (Rect.unit (s := S30000x1024) (fun a => cc0_transform_2 i a * S2048x1024.size a) (fun a => (Pipeline.Clip.of (cc0_transform_2 i a) (S2048x1024.size a) (S30000x1024.size a)).extent (S2048x1024.size a)) fun a => Pipeline.Clip.inb (Pipeline.Clip.ok_of (hstart0_2 i a))).WholeWords (EltTy.packing .f32)
  hwxs0_2 : ∀ i : grid0.Coords, EltTy.bits .f32 = 32 ∨ (Rect.unit (s := S2048x1024) (fun _ => 0) (fun a => (Pipeline.Clip.of (cc0_transform_2 i a) (S2048x1024.size a) (S30000x1024.size a)).extent (S2048x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x2048.size a < S8x30000.size a
  hwx0_3 : ∀ i : grid0.Coords, EltTy.bits .f32 = 32 ∨ (Rect.unit (s := S8x30000) (fun a => cc0_transform_3 i a * S8x2048.size a) (fun a => (Pipeline.Clip.of (cc0_transform_3 i a) (S8x2048.size a) (S8x30000.size a)).extent (S8x2048.size a)) fun a => Pipeline.Clip.inb (Pipeline.Clip.ok_of (hstart0_3 i a))).WholeWords (EltTy.packing .f32)
  hwxs0_3 : ∀ i : grid0.Coords, EltTy.bits .f32 = 32 ∨ (Rect.unit (s := S8x2048) (fun _ => 0) (fun a => (Pipeline.Clip.of (cc0_transform_3 i a) (S8x2048.size a) (S8x30000.size a)).extent (S8x2048.size a)) fun a => (Nat.zero_add _).trans_le (Pipeline.Clip.extent_le (Pipeline.Clip.ok_of (hstart0_3 i a)))).WholeWords (EltTy.packing .f32)

variable [Facts₀]

def gather_S30000x1024_S8x1_S8x1024_1_0_n_n_0_1_11024 : GatherDims S30000x1024 S8x1 S8x1024 where
  offsetDims := [1]
  collapsedSliceDims := [0]
  operandBatchingDims := []
  startIndicesBatchingDims := []
  startIndexMap := [0]
  indexVectorDim := 1
  sliceSizes := ![1, 1024]
  wf := gather_S30000x1024_S8x1_S8x1024_1_0_n_n_0_1_11024_wf
def gather_S1000x512_S8x1_S8x512_1_0_n_n_0_1_1512 : GatherDims S1000x512 S8x1 S8x512 where
  offsetDims := [1]
  collapsedSliceDims := [0]
  operandBatchingDims := []
  startIndicesBatchingDims := []
  startIndexMap := [0]
  indexVectorDim := 1
  sliceSizes := ![1, 512]
  wf := gather_S1000x512_S8x1_S8x512_1_0_n_n_0_1_1512_wf

abbrev win0_0 : Pipeline.Window sig grid0 :=
  Pipeline.Window.ofSpec (Memref.whole main_v22) S8x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v25) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S2048x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v26) S8x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8 : Shape := ⟨1, ![8]⟩
abbrev S30000x1024 : Shape := ⟨2, ![30000, 1024]⟩
abbrev S1000x512 : Shape := ⟨2, ![1000, 512]⟩
abbrev S_ : Shape := ⟨0, ![]⟩
abbrev S8x1 : Shape := ⟨2, ![8, 1]⟩
abbrev S8x1024 : Shape := ⟨2, ![8, 1024]⟩
abbrev S8x512 : Shape := ⟨2, ![8, 512]⟩
abbrev S30000x512 : Shape := ⟨2, ![30000, 512]⟩
abbrev S8x1x512 : Shape := ⟨3, ![8, 1, 512]⟩
abbrev S1x30000x512 : Shape := ⟨3, ![1, 30000, 512]⟩
abbrev S8x30000x512 : Shape := ⟨3, ![8, 30000, 512]⟩
abbrev S8x30000 : Shape := ⟨2, ![8, 30000]⟩

abbrev nBuf : Space → Nat
  | .hbm => 56
  | .vmem => 0
  | .smem => 0
  | _ => 0

abbrev bufTy : (tb : Table) → Fin (tcTables nBuf tb) → BufTy
  | .hbm, ⟨0, _⟩ => ⟨S8, .i32⟩
  | .hbm, ⟨1, _⟩ => ⟨S8, .i32⟩
  | .hbm, ⟨2, _⟩ => ⟨S30000x1024, .f32⟩
  | .hbm, ⟨3, _⟩ => ⟨S1000x512, .f32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x1024, .f32⟩
  | .hbm, ⟨13, _⟩ => ⟨S8x512, .f32⟩
  | .hbm, ⟨14, _⟩ => ⟨S8x512, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S8x512, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S8x512, .f32⟩
  | .hbm, ⟨33, _⟩ => ⟨S8x512, .f32⟩
  | .hbm, ⟨34, _⟩ => ⟨S8x512, .f32⟩
  | .hbm, ⟨35, _⟩ => ⟨S30000x512, .f32⟩
  | .hbm, ⟨36, _⟩ => ⟨S30000x512, .f32⟩
  | .hbm, ⟨37, _⟩ => ⟨S8x1x512, .f32⟩
  | .hbm, ⟨38, _⟩ => ⟨S1x30000x512, .f32⟩
  | .hbm, ⟨39, _⟩ => ⟨S8x30000x512, .f32⟩
  | .hbm, ⟨40, _⟩ => ⟨S8x30000x512, .f32⟩
  | .hbm, ⟨41, _⟩ => ⟨S8x30000x512, .f32⟩
  | .hbm, ⟨42, _⟩ => ⟨S8x1x512, .f32⟩
  | .hbm, ⟨43, _⟩ => ⟨S1x30000x512, .f32⟩
  | .hbm, ⟨44, _⟩ => ⟨S8x30000x512, .f32⟩
  | .hbm, ⟨45, _⟩ => ⟨S8x30000x512, .f32⟩
  | .hbm, ⟨46, _⟩ => ⟨S8x30000x512, .f32⟩
  | .hbm, ⟨47, _⟩ => ⟨S8x30000x512, .f32⟩
  | .hbm, ⟨48, _⟩ => ⟨S8x30000x512, .f32⟩
  | .hbm, ⟨49, _⟩ => ⟨S8x30000x512, .f32⟩
  | .hbm, ⟨50, _⟩ => ⟨S8x30000x512, .f32⟩
  | .hbm, ⟨51, _⟩ => ⟨S_, .f32⟩
  | .hbm, ⟨52, _⟩ => ⟨S8x30000, .f32⟩
  | .hbm, ⟨53, _⟩ => ⟨S_, .f32⟩
  | .hbm, ⟨54, _⟩ => ⟨S8x30000, .f32⟩
  | .hbm, ⟨55, _⟩ => ⟨S8x30000, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  slices_S8x1024_S8x512_0_0 : S8x1024.Slices ![0, 0] S8x512
  slices_S8x1024_S8x512_0_512 : S8x1024.Slices ![0, 512] S8x512
  bcast_S_S8x512 : S_.BroadcastsInDim S8x512 (![] : Fin 0 → Fin S8x512.rank)
  slices_S30000x1024_S30000x512_0_0 : S30000x1024.Slices ![0, 0] S30000x512
  slices_S30000x1024_S30000x512_0_512 : S30000x1024.Slices ![0, 512] S30000x512
  bcast_S8x512_S8x1x512_0_2 : S8x512.BroadcastsInDim S8x1x512 (![0, 2] : Fin 2 → Fin S8x1x512.rank)
  bcast_S30000x512_S1x30000x512_1_2 : S30000x512.BroadcastsInDim S1x30000x512 (![1, 2] : Fin 2 → Fin S1x30000x512.rank)
  bcast_S8x1x512_S8x30000x512_0_1_2 : S8x1x512.BroadcastsInDim S8x30000x512 (![0, 1, 2] : Fin 3 → Fin S8x30000x512.rank)
  bcast_S1x30000x512_S8x30000x512_0_1_2 : S1x30000x512.BroadcastsInDim S8x30000x512 (![0, 1, 2] : Fin 3 → Fin S8x30000x512.rank)
  reducesTo_S8x30000x512_S8x30000_d2 : S8x30000x512.ReducesTo [2] S8x30000
  h_S_ : 0 < S_.numel
  bcast_S_S8x30000 : S_.BroadcastsInDim S8x30000 (![] : Fin 0 → Fin S8x30000.rank)
  gather_S30000x1024_S8x1_S8x1024_1_0_n_n_0_1_11024_wf : GatherDims.WF S30000x1024 S8x1 S8x1024 [1] [0] [] [0] [] 1 ![1, 1024]
  gather_S1000x512_S8x1_S8x512_1_0_n_n_0_1_1512_wf : GatherDims.WF S1000x512 S8x1 S8x512 [1] [0] [] [0] [] 1 ![1, 512]

variable [Facts₀]

def gather_S30000x1024_S8x1_S8x1024_1_0_n_n_0_1_11024 : GatherDims S30000x1024 S8x1 S8x1024 where
  offsetDims := [1]
  collapsedSliceDims := [0]
  operandBatchingDims := []
  startIndicesBatchingDims := []
  startIndexMap := [0]
  indexVectorDim := 1
  sliceSizes := ![1, 1024]
  wf := gather_S30000x1024_S8x1_S8x1024_1_0_n_n_0_1_11024_wf
def gather_S1000x512_S8x1_S8x512_1_0_n_n_0_1_1512 : GatherDims S1000x512 S8x1 S8x512 where
  offsetDims := [1]
  collapsedSliceDims := [0]
  operandBatchingDims := []
  startIndicesBatchingDims := []
  startIndexMap := [0]
  indexVectorDim := 1
  sliceSizes := ![1, 512]
  wf := gather_S1000x512_S8x1_S8x512_1_0_n_n_0_1_1512_wf

class Facts : Prop extends Facts₀ where

variable [Facts]
-- ==== Proof.BodyK.lean ====
/-
  The word-level program's kernel body, run once on whole memrefs: what it reads it leaves as it was, and the
  output block and the scratch end at some contents.
-/
import proofs.«138440_j8924942041236_2_alg».proof.Proof.Gen.Kernel.Frame
import proofs.«138440_j8924942041236_2_alg».proof.Proof.Gen.Kernel.Skeleton
import proofs.«138440_j8924942041236_2_alg».proof.Proof.Gen.Kernel.Loops
import Idealize.ShloMosaic.Lib.Pipeline.Frame
import Idealize.ShloMosaic.Lib.Exec.Geometry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple

One run of the body: four trips, each storing one (8, 512) column chunk of the scratch, then the whole scratch
copied into the output block. The two query blocks and the entity tile are only read. -/

set_option maxHeartbeats 1000000 in
/-- The body on whole memrefs — the two query blocks and the entity tile at read contents, the output block and the
    scratch at anything — runs to the continuation holding the three inputs as they were and the output block and the
    scratch at some contents. -/
theorem sound_kernel (c : Dev nD) (E : Set ℕ) (i : grid0.Coords)
    (arg1 : Memref sig .tc .vmem S8x512 .f32) (harg1 : arg1.IsWhole) (arg2 : Memref sig .tc .vmem S8x512 .f32) (harg2 : arg2.IsWhole)
    (arg3 : Memref sig .tc .vmem S2048x1024 .f32) (harg3 : arg3.IsWhole) (arg4 : Memref sig .tc .vmem S8x2048 .f32) (harg4 : arg4.IsWhole)
    (arg5 : Memref sig .tc .vmem S8x2048 .f32) (harg5 : arg5.IsWhole)
    (X1 X2 : Vec F S8x512 .f32) (X3 : Vec F S2048x1024 .f32) (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) arg5 fullShare d)
        ∗ (iprop(owns (c : Thread nD τ) arg1 fullShare X1 ∗ owns (c : Thread nD τ) arg2 fullShare X2 ∗ owns (c : Thread nD τ) arg3 fullShare X3
              ∗ (∃ Z, owns (c : Thread nD τ) arg4 fullShare Z) ∗ (∃ Z, owns (c : Thread nD τ) arg5 fullShare Z)) -∗ K ⟨⟩))
      ⊢ wp frame (wpE (defs₀ (F := F)) Variants.none c none) E (cc0__rotate_dist_kernel i arg1 harg1 arg2 harg2 arg3 harg3 arg4 harg4 arg5 harg5) K := by
  simp only [cc0__rotate_dist_kernel_eq_skeleton]; unfold cc0__rotate_dist_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; iexists _; isplitr
    swap; · iexact H4
    ipureintro; rfl
  · iexists _; iexists _; isplitr
    swap; · iexact H5
    ipureintro; rfl

/-- The scratch buffer, held whole, as the class invariant states it and as the body takes it. -/
theorem scratch_in (c : Dev nD) (f : Buf (Elt F) ((c : Thread nD τ).loc cc0_scratch0)) :
    (((c : Thread nD τ).loc cc0_scratch0) ↦{fullShare} f : sProp 𝕄) ⊢ owns (c : Thread nD τ) (Memref.whole cc0_scratch0) fullShare f := by
  rw [owns_whole_eq]; iintro H; iexists f; isplitr; · ipureintro; rfl
  iexact H
theorem scratch_out (c : Dev nD) (Z : Vec F S8x2048 .f32) :
    (owns (c : Thread nD τ) (Memref.whole cc0_scratch0) fullShare Z : sProp 𝕄)
      ⊢ iprop(∃ f : Buf (Elt F) ((c : Thread nD τ).loc cc0_scratch0), ((c : Thread nD τ).loc cc0_scratch0) ↦{fullShare} f) := by
  rw [owns_whole_eq]; iintro ⟨%f, -, H⟩; iexists f; iexact H

end Cert.Kernel.Gen

end
-- ==== Proof.FrameK.lean ====
/-
  The frame of the word-level program: the proof data with the result's window unnamed, the body obligation at
  every grid point, and the run to the end with the four argument arrays unchanged.
-/
import proofs.«138440_j8924942041236_2_alg».proof.Proof.Gen.Kernel.Frame
import proofs.«138440_j8924942041236_2_alg».proof.Proof.Gen.Kernel.Skeleton
import proofs.«138440_j8924942041236_2_alg».proof.Proof.Gen.Kernel.Loops
import proofs.«138440_j8924942041236_2_alg».proof.Proof.BodyK
import Idealize.ShloMosaic.Lib.Pipeline.Frame
import Idealize.ShloMosaic.Lib.Exec.Geometry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The output window's contents are not named: the frame says nothing of the result. -/
abbrev fgt3 : Fin cfg0.W → Bool := fun | 0 => false | 1 => false | 2 => false | 3 => true | ⟨_ + 4, h⟩ => absurd h (Nat.not_lt.2 (Nat.le_add_left _ _))

/-- The proof data on core `c`: the arrays as the region finds them; after the body the two query blocks' buffers at
    their blocks, the entity tile's buffer at its block (rows past the array's end at a filler nothing reads), the
    output's unnamed; the class invariant (the scratch at some contents); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => Scalar.ofBits .f32 0#32) (iblk m c 2 t) := by dsimp only [dats]

/-- The query blocks' buffers hold their blocks at every point (fetched once, kept by the body). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The entity tile is fetched at every point: its buffer holds the tile's rows inside the array, and `d` past them. -/
theorem before0_2 (c : Dev nD) (t : Fin cfg0.N) (d) :
    (dats m 0 c).before 2 t d = win0_2.fill (grid0.coords t) d (iblk m c 2 t) := by
  unfold Dat.before; rw [if_pos (fetch0_2 t)]; rfl

/-! ## The body obligation -/

theorem body_obligation (c : Dev nD) :
    BodyObligationLoose (dats (F := F) m 0 c) (defs₀ (F := F)) Variants.none () Set.univ fgt3 := fun t => by
  rw [bigSep_W0, bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f5, H5⟩, Hr⟩, Ho, ⟨%d0, H0⟩, ⟨%d1, H1⟩, ⟨%d2, H2⟩, ⟨%X3, H3⟩⟩
  rw [before0_0 m c t d0, before0_1 m c t d1, before0_2 m c t d2]
  iapply (sound_kernel (F := F) c Set.univ (grid0.coords t) _ _ _ _ _ _ _ _ (Memref.whole cc0_scratch0) (Memref.isWhole_whole _)
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H5]
  · iexists f5; iapply (scratch_in (F := F) c f5); iexact H5
  iintro ⟨H0, H1, H2, ⟨%Z4, H4⟩, ⟨%Z5, H5⟩⟩
  isplitl [H5 Hr]
  · isplitl [H5]; · iapply (scratch_out (F := F) c Z5); iexact H5
    iexact Hr
  isplitl [Ho]; · iexact Ho
  isplitl [H0]; · rw [after0_0]; iexact H0
  isplitl [H1]; · rw [after0_1]; iexact H1
  isplitl [H2]
  · iexists d2; rw [after0_2, Window.cut_fill]; iexact H2
  · iexists Z4; iexact H4

/-! ## The run and the frame -/

set_option backward.isDefEq.respectTransparency.types false in
theorem run_main : θ_run defs (onTc (τ := τ) (main (F := F))) (s₀ m ρ)
    (Pipeline.RDat.FramePost cfg0 (fun c => (dats m 0 c).toRForget fgt3) (V m)) :=
  Pipeline.RDat.θ_run_frame cfgs (0 : Fin 1) launch0 defs₀ Variants.none (fun c => (dats m 0 c).toRForget fgt3) m ρ main
    (hbody := fun c => (body_obligation m c).toRForget) (hshare := fun c => (dats m 0 c).share_full fun _ => rfl)
    (howed := fun _ _ => rfl) (V := V m) (hmain := hmain m Variants.none) (hA := fun _ _ => rfl) (hΦ := fun _ _ => rfl)

/-- THE FRAME: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (by
        have h2 : ((dats m 0 c).toRForget fgt3).ArrAt (2 : Fin 4) cfg0.N (r.2.mem ((cfg0.spec 2).arr.view.loc (c.tc : Thread nD τ))) := (h c).1 (2 : Fin 4)
        rw [Pipeline.RDat.ArrAt_in ((dats m 0 c).toRForget fgt3) (2 : Fin 4) rfl] at h2
        exact (h2 : _ = _).trans (V_main_arg2 m c)),
      ((h c).2 main_arg3 (Pipeline.mem_restRefs_of main_arg3 (by decide) (by decide))).trans (V_main_arg3 m c)⟩) (run_main m ρ)

end Cert.Kernel.Gen

end
-- ==== Proof.Chunk.lean ====
/-
  What one run of the body leaves in the output block, as a function of the contents of the three input buffers:
  trip k of the loop computes an (8, 512) chunk from rows 512k .. 512k+511 of the entity tile and the eight query rows,
  and the chunks sit side by side along the columns of the (8, 2048) block.
-/
import proofs.«138440_j8924942041236_2_alg».proof.Proof.Gen.KernelIdeal.Frame
import proofs.«138440_j8924942041236_2_alg».proof.Proof.Gen.KernelIdeal.Skeleton
import proofs.«138440_j8924942041236_2_alg».proof.Proof.Gen.KernelIdeal.Loops
import Idealize.ShloMosaic.Lib.ValueIdx
import Idealize.ShloMosaic.Lib.Pipeline.Frame
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The loop makes four trips. -/
theorem trips_eq : k0_t1_loop.trips = 4 := by decide +kernel

/-- Trip `k`'s chunk: the trip's payload over what the trip loads — the two halves of rows 512k .. 512k+511 of the
    entity tile `X3`, and row b of each query block `X1`, `X2` for b = 0 .. 7. -/
def chunk (arg0 : BitVec 32) (X1 X2 : Vec F S8x512 .f32) (X3 : Vec F S2048x1024 .f32) (k : Fin k0_t1_loop.trips) : FVec F S8x512 .f32 :=
  k0_pay1
    (View.ld X3 (Rect.unit (s := S2048x1024) (k0_off1 k) S512x512.size (k0_off1_inb k)))
    (View.ld X3 (Rect.unit (s := S2048x1024) (k0_off2 k) S512x512.size (k0_off2_inb k)))
    (k0_pay2 arg0 0#32 1#32 k)
    (k0_pay3 arg0 0#32 1#32 k
      (View.ld X3 (Rect.unit (s := S2048x1024) (k0_off1 k) S512x512.size (k0_off1_inb k)))
      (View.ld X3 (Rect.unit (s := S2048x1024) (k0_off2 k) S512x512.size (k0_off2_inb k)))
      (View.ld X1 (Rect.unit (s := S8x512) ![0, 0] S1x512.size inb_S8x512_S1x512_0_0))
      (View.ld X2 (Rect.unit (s := S8x512) ![0, 0] S1x512.size inb_S8x512_S1x512_0_0)))
    (k0_pay5 (k0_pay2 arg0 0#32 1#32 k)
      (k0_pay4
        (View.ld X3 (Rect.unit (s := S2048x1024) (k0_off1 k) S512x512.size (k0_off1_inb k)))
        (View.ld X3 (Rect.unit (s := S2048x1024) (k0_off2 k) S512x512.size (k0_off2_inb k)))
        (View.ld X1 (Rect.unit (s := S8x512) ![1, 0] S1x512.size inb_S8x512_S1x512_1_0))
        (View.ld X2 (Rect.unit (s := S8x512) ![1, 0] S1x512.size inb_S8x512_S1x512_1_0))))
    (k0_pay6
      (View.ld X3 (Rect.unit (s := S2048x1024) (k0_off1 k) S512x512.size (k0_off1_inb k)))
      (View.ld X3 (Rect.unit (s := S2048x1024) (k0_off2 k) S512x512.size (k0_off2_inb k)))
      (k0_pay2 arg0 0#32 1#32 k)
      (View.ld X1 (Rect.unit (s := S8x512) ![2, 0] S1x512.size inb_S8x512_S1x512_2_0))
      (View.ld X2 (Rect.unit (s := S8x512) ![2, 0] S1x512.size inb_S8x512_S1x512_2_0)))
    (k0_pay7
      (View.ld X3 (Rect.unit (s := S2048x1024) (k0_off1 k) S512x512.size (k0_off1_inb k)))
      (View.ld X3 (Rect.unit (s := S2048x1024) (k0_off2 k) S512x512.size (k0_off2_inb k)))
      (k0_pay2 arg0 0#32 1#32 k)
      (View.ld X1 (Rect.unit (s := S8x512) ![3, 0] S1x512.size inb_S8x512_S1x512_3_0))
      (View.ld X2 (Rect.unit (s := S8x512) ![3, 0] S1x512.size inb_S8x512_S1x512_3_0)))
    (k0_pay10 (k0_pay2 arg0 0#32 1#32 k)
      (k0_pay8
        (View.ld X3 (Rect.unit (s := S2048x1024) (k0_off2 k) S512x512.size (k0_off2_inb k)))
        (View.ld X2 (Rect.unit (s := S8x512) ![4, 0] S1x512.size inb_S8x512_S1x512_4_0)))
      (k0_pay9
        (View.ld X3 (Rect.unit (s := S2048x1024) (k0_off1 k) S512x512.size (k0_off1_inb k)))
        (View.ld X1 (Rect.unit (s := S8x512) ![4, 0] S1x512.size inb_S8x512_S1x512_4_0))))
    (k0_pay11
      (View.ld X3 (Rect.unit (s := S2048x1024) (k0_off1 k) S512x512.size (k0_off1_inb k)))
      (View.ld X3 (Rect.unit (s := S2048x1024) (k0_off2 k) S512x512.size (k0_off2_inb k)))
      (k0_pay2 arg0 0#32 1#32 k)
      (View.ld X1 (Rect.unit (s := S8x512) ![5, 0] S1x512.size inb_S8x512_S1x512_5_0))
      (View.ld X2 (Rect.unit (s := S8x512) ![5, 0] S1x512.size inb_S8x512_S1x512_5_0)))
    (k0_pay12
      (View.ld X3 (Rect.unit (s := S2048x1024) (k0_off1 k) S512x512.size (k0_off1_inb k)))
      (View.ld X3 (Rect.unit (s := S2048x1024) (k0_off2 k) S512x512.size (k0_off2_inb k)))
      (k0_pay2 arg0 0#32 1#32 k)
      (View.ld X1 (Rect.unit (s := S8x512) ![6, 0] S1x512.size inb_S8x512_S1x512_6_0))
      (View.ld X2 (Rect.unit (s := S8x512) ![6, 0] S1x512.size inb_S8x512_S1x512_6_0)))
    (k0_pay13 (View.ld X1 (Rect.unit (s := S8x512) ![7, 0] S1x512.size inb_S8x512_S1x512_7_0)))
    (View.ld X2 (Rect.unit (s := S8x512) ![7, 0] S1x512.size inb_S8x512_S1x512_7_0))

theorem chunk_congr (arg0 : BitVec 32) (X1 X2 : Vec F S8x512 .f32) (X3 : Vec F S2048x1024 .f32)
    {k k' : Fin k0_t1_loop.trips} (hk : k = k') {j j' : S8x512.Idx} (hj : j = j') :
    chunk arg0 X1 X2 X3 k j = chunk arg0 X1 X2 X3 k' j' := by subst hk; subst hj; rfl

/-- The output block after the body: column n of the (8, 2048) block belongs to trip n / 512, at column n % 512 of
    that trip's chunk. -/
def bodyOut (arg0 : BitVec 32) (X1 X2 : Vec F S8x512 .f32) (X3 : Vec F S2048x1024 .f32) : Vec F S8x2048 .f32 :=
  fun y => chunk arg0 X1 X2 X3 ⟨(y 1).val / 512, by rw [trips_eq]; have := idx2_lt1 y; omega⟩
    (ix2 (y 0) ⟨(y 1).val % 512, Nat.mod_lt _ (by decide)⟩)

/-- Read at the (8, 512) rectangle trip `k` stores through, the output block is trip `k`'s chunk. -/
theorem bodyOut_emb (arg0 : BitVec 32) (X1 X2 : Vec F S8x512 .f32) (X3 : Vec F S2048x1024 .f32) (k : Fin k0_t1_loop.trips)
    (x : (Rect.unit (s := S8x2048) (k0_off3 k) S8x512.size (k0_off3_inb k)).shape.Idx) :
    bodyOut arg0 X1 X2 X3 ((Rect.unit (s := S8x2048) (k0_off3 k) S8x512.size (k0_off3_inb k)).emb x) = chunk arg0 X1 X2 X3 k x := by
  have hk : k.val < 4 := lt_of_lt_of_le k.isLt (le_of_eq trips_eq)
  have e0 : k0_off3 k 0 = 0 := by have := congrFun (k0_off3_eq k) 0; simpa using this
  have e1 : k0_off3 k 1 = 512 * k.val := by have := congrFun (k0_off3_eq k) 1; simpa using this
  have h0 : (((Rect.unit (s := S8x2048) (k0_off3 k) S8x512.size (k0_off3_inb k)).emb x) 0).val = (x 0).val := by
    rw [Rect.emb_apply]; show k0_off3 k 0 + 1 * (x 0).val = _; omega
  have h1 : (((Rect.unit (s := S8x2048) (k0_off3 k) S8x512.size (k0_off3_inb k)).emb x) 1).val = 512 * k.val + (x 1).val := by
    rw [Rect.emb_apply]; show k0_off3 k 1 + 1 * (x 1).val = _; omega
  have hx1 : (x 1).val < 512 := (x 1).isLt
  unfold bodyOut
  refine chunk_congr arg0 X1 X2 X3 (Fin.ext ?_) (funext fun a => Fin.ext ?_)
  · show _ / 512 = k.val; rw [h1]; omega
  · match a with
    | ⟨0, _⟩ => exact h0
    | ⟨1, _⟩ => show _ % 512 = (x 1).val; rw [h1]; omega

end Cert.KernelIdeal.Gen

end
-- ==== Proof.BodyI.lean ====
/-
  The idealized program's kernel body, run once on whole memrefs: the three input buffers are left as they were and
  the output block ends holding the four trips' chunks side by side (each trip stores its chunk into the scratch, and
  the scratch is then copied whole into the output block).
-/
import proofs.«138440_j8924942041236_2_alg».proof.Proof.Gen.KernelIdeal.Frame
import proofs.«138440_j8924942041236_2_alg».proof.Proof.Gen.KernelIdeal.Skeleton
import proofs.«138440_j8924942041236_2_alg».proof.Proof.Gen.KernelIdeal.Loops
import proofs.«138440_j8924942041236_2_alg».proof.Proof.Chunk
import Idealize.ShloMosaic.Lib.Pipeline.Frame
import Idealize.ShloMosaic.Lib.Pipeline.Value
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

section Pieces

variable (𝒱 : Variants) (c : Dev nD) (bd : Option 𝒱.V) (i : grid0.Coords)
    (arg1 : Memref sig .tc .vmem S8x512 .f32) (harg1 : arg1.IsWhole) (arg2 : Memref sig .tc .vmem S8x512 .f32) (harg2 : arg2.IsWhole)
    (arg3 : Memref sig .tc .vmem S2048x1024 .f32) (harg3 : arg3.IsWhole) (arg4 : Memref sig .tc .vmem S8x2048 .f32) (harg4 : arg4.IsWhole)
    (arg5 : Memref sig .tc .vmem S8x2048 .f32) (harg5 : arg5.IsWhole) (arg0 : BitVec 32)
    (f1 : BufTy.Contents (Elt F) arg1.view.ty) (f2 : BufTy.Contents (Elt F) arg2.view.ty) (f3 : BufTy.Contents (Elt F) arg3.view.ty)

/-- What trip `k` stores: ONE piece, its chunk through the (8, 512) rectangle at column 512k of the scratch. -/
theorem tripL_eq (k : Fin k0_t1_loop.trips) :
    tripL_k0_t1 (F := F) 𝒱 c bd i arg1 harg1 arg2 harg2 arg3 harg3 arg4 harg4 arg5 harg5 arg0 f1 f2 f3 k
      = [⟨Rect.unit (s := S8x2048) (k0_off3 k) S8x512.size (k0_off3_inb k),
          chunk arg0 (View.read (Elt F) arg1.view f1) (View.read (Elt F) arg2.view f2) (View.read (Elt F) arg3.view f3) k⟩] := by
  unfold tripL_k0_t1 trip_k0_t1
  dsimp only
  sl_unfold_words
  rfl

/-- Every piece stored by the trips before `n` is some trip's chunk through that trip's rectangle. -/
theorem pb_pieces : ∀ n, n ≤ k0_t1_loop.trips →
    ∀ p ∈ pb_k0_t1 (F := F) 𝒱 c bd i arg1 harg1 arg2 harg2 arg3 harg3 arg4 harg4 arg5 harg5 arg0 f1 f2 f3 n,
      ∃ k : Fin k0_t1_loop.trips, p = ⟨Rect.unit (s := S8x2048) (k0_off3 k) S8x512.size (k0_off3_inb k),
          chunk arg0 (View.read (Elt F) arg1.view f1) (View.read (Elt F) arg2.view f2) (View.read (Elt F) arg3.view f3) k⟩
  | 0, _, p, hp => by rw [pb_k0_t1.eq_1] at hp; exact absurd hp List.not_mem_nil
  | n + 1, hn, p, hp => by
    have hs : pb_k0_t1 (F := F) 𝒱 c bd i arg1 harg1 arg2 harg2 arg3 harg3 arg4 harg4 arg5 harg5 arg0 f1 f2 f3 (n + 1)
        = tripL_k0_t1 (F := F) 𝒱 c bd i arg1 harg1 arg2 harg2 arg3 harg3 arg4 harg4 arg5 harg5 arg0 f1 f2 f3 ⟨n, hn⟩
          ++ pb_k0_t1 (F := F) 𝒱 c bd i arg1 harg1 arg2 harg2 arg3 harg3 arg4 harg4 arg5 harg5 arg0 f1 f2 f3 n :=
      pb_k0_t1_succ 𝒱 c bd i arg1 harg1 arg2 harg2 arg3 harg3 arg4 harg4 arg5 harg5 arg0 f1 f2 f3 ⟨n, hn⟩
    rw [hs, tripL_eq] at hp
    rcases List.mem_append.mp hp with h | h
    · exact ⟨⟨n, hn⟩, List.mem_singleton.mp h⟩
    · exact pb_pieces n (Nat.le_of_succ_le hn) p h

/-- Trip `k`'s piece is among those of the trips before `n`, for `k < n`. -/
theorem mem_pb (k : Fin k0_t1_loop.trips) : ∀ n, n ≤ k0_t1_loop.trips → k.val < n →
    (⟨Rect.unit (s := S8x2048) (k0_off3 k) S8x512.size (k0_off3_inb k),
        chunk arg0 (View.read (Elt F) arg1.view f1) (View.read (Elt F) arg2.view f2) (View.read (Elt F) arg3.view f3) k⟩ : View.Piece (Elt F) S8x2048 .f32)
      ∈ pb_k0_t1 (F := F) 𝒱 c bd i arg1 harg1 arg2 harg2 arg3 harg3 arg4 harg4 arg5 harg5 arg0 f1 f2 f3 n
  | 0, _, h => absurd h (Nat.not_lt_zero _)
  | n + 1, hn, h => by
    have hs : pb_k0_t1 (F := F) 𝒱 c bd i arg1 harg1 arg2 harg2 arg3 harg3 arg4 harg4 arg5 harg5 arg0 f1 f2 f3 (n + 1)
        = tripL_k0_t1 (F := F) 𝒱 c bd i arg1 harg1 arg2 harg2 arg3 harg3 arg4 harg4 arg5 harg5 arg0 f1 f2 f3 ⟨n, hn⟩
          ++ pb_k0_t1 (F := F) 𝒱 c bd i arg1 harg1 arg2 harg2 arg3 harg3 arg4 harg4 arg5 harg5 arg0 f1 f2 f3 n :=
      pb_k0_t1_succ 𝒱 c bd i arg1 harg1 arg2 harg2 arg3 harg3 arg4 harg4 arg5 harg5 arg0 f1 f2 f3 ⟨n, hn⟩
    rw [hs, tripL_eq]
    by_cases e : k.val = n
    · have hk : k = ⟨n, hn⟩ := Fin.ext e
      subst hk
      exact List.mem_append_left _ (List.mem_singleton_self _)
    · exact List.mem_append_right _ (mem_pb k n (Nat.le_of_succ_le hn) (by omega))

/-- After the four trips the scratch reads the four chunks side by side, whatever it held before: the pieces are
    disjoint column ranges that together fill the block, and each is its trip's chunk. -/
theorem read_scratch (f5 : BufTy.Contents (Elt F) arg5.view.ty) :
    arg5.view.read (Elt F) (arg5.view.writes (Elt F) f5 (pb_k0_t1 (F := F) 𝒱 c bd i arg1 harg1 arg2 harg2 arg3 harg3 arg4 harg4 arg5 harg5 arg0 f1 f2 f3 k0_t1_loop.trips))
      = bodyOut arg0 (View.read (Elt F) arg1.view f1) (View.read (Elt F) arg2.view f2) (View.read (Elt F) arg3.view f3) := by
  funext y
  refine View.read_writes_apply_of_pieces arg5.view f5 (bodyOut arg0 _ _ _) _ (fun p hp x => ?_) y ?_
  · obtain ⟨k, rfl⟩ := pb_pieces 𝒱 c bd i arg1 harg1 arg2 harg2 arg3 harg3 arg4 harg4 arg5 harg5 arg0 f1 f2 f3 _ le_rfl p hp
    exact (bodyOut_emb arg0 _ _ _ k x).symm
  · have hy1 : (y 1).val < 2048 := idx2_lt1 y
    have hy0 : (y 0).val < 8 := idx2_lt0 y
    have hk : (y 1).val / 512 < k0_t1_loop.trips := by rw [trips_eq]; omega
    refine ⟨_, mem_pb 𝒱 c bd i arg1 harg1 arg2 harg2 arg3 harg3 arg4 harg4 arg5 harg5 arg0 f1 f2 f3 ⟨(y 1).val / 512, hk⟩ _ le_rfl hk, ?_⟩
    have e0 : k0_off3 ⟨(y 1).val / 512, hk⟩ 0 = 0 := by have := congrFun (k0_off3_eq ⟨(y 1).val / 512, hk⟩) 0; simpa using this
    have e1 : k0_off3 ⟨(y 1).val / 512, hk⟩ 1 = 512 * ((y 1).val / 512) := by
      have := congrFun (k0_off3_eq ⟨(y 1).val / 512, hk⟩) 1; simpa using this
    rw [Rect.mem_set_unit]
    intro a
    match a with
    | ⟨0, _⟩ => show k0_off3 _ 0 ≤ (y 0).val ∧ (y 0).val < k0_off3 _ 0 + 8; omega
    | ⟨1, _⟩ => show k0_off3 _ 1 ≤ (y 1).val ∧ (y 1).val < k0_off3 _ 1 + 512; omega

end Pieces

/-! ## The body's triple -/

set_option maxHeartbeats 1000000 in
/-- The body on whole memrefs — the two query blocks and the entity tile at read contents `X1`, `X2`, `X3`, the
    output block and the scratch at anything — runs to the continuation holding the three inputs as they were, the
    output block at the four chunks side by side, and the scratch at some contents. -/
theorem sound_kernel (c : Dev nD) (E : Set ℕ) (i : grid0.Coords)
    (arg1 : Memref sig .tc .vmem S8x512 .f32) (harg1 : arg1.IsWhole) (arg2 : Memref sig .tc .vmem S8x512 .f32) (harg2 : arg2.IsWhole)
    (arg3 : Memref sig .tc .vmem S2048x1024 .f32) (harg3 : arg3.IsWhole) (arg4 : Memref sig .tc .vmem S8x2048 .f32) (harg4 : arg4.IsWhole)
    (arg5 : Memref sig .tc .vmem S8x2048 .f32) (harg5 : arg5.IsWhole)
    (X1 X2 : Vec F S8x512 .f32) (X3 : Vec F S2048x1024 .f32) (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) arg5 fullShare d)
        ∗ (iprop(owns (c : Thread nD τ) arg1 fullShare X1 ∗ owns (c : Thread nD τ) arg2 fullShare X2 ∗ owns (c : Thread nD τ) arg3 fullShare X3
              ∗ owns (c : Thread nD τ) arg4 fullShare (bodyOut (BitVec.ofNat 32 (i 0).val) X1 X2 X3)
              ∗ (∃ Z, owns (c : Thread nD τ) arg5 fullShare Z)) -∗ K ⟨⟩))
      ⊢ wp frame (wpE (defs₀ (F := F)) Variants.none c none) E (cc0__rotate_dist_kernel i arg1 harg1 arg2 harg2 arg3 harg3 arg4 harg4 arg5 harg5) K := by
  have hz : (![0, 0] : Fin 2 → Nat) = fun _ => 0 := funext fun a => by fin_cases a <;> rfl
  simp only [cc0__rotate_dist_kernel_eq_skeleton]; unfold cc0__rotate_dist_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz inb_S8x2048_S8x2048_0_0 y⟩),
      View.canon_unit_zero hz]
    sl_unfold_words
    rw [View.readAt_eq_ld, View.ld_unit_zero hz]
    exact read_scratch Variants.none c none i arg1 harg1 arg2 harg2 arg3 harg3 arg4 harg4 arg5 harg5 _ f1 f2 f3 f5
  · iexists _; iexists _; isplitr
    swap; · iexact H5
    ipureintro; rfl

/-- The scratch buffer, held whole, as the class invariant states it and as the body takes it. -/
theorem scratch_in (c : Dev nD) (f : Buf (Elt F) ((c : Thread nD τ).loc cc0_scratch0)) :
    (((c : Thread nD τ).loc cc0_scratch0) ↦{fullShare} f : sProp 𝕄) ⊢ owns (c : Thread nD τ) (Memref.whole cc0_scratch0) fullShare f := by
  rw [owns_whole_eq]; iintro H; iexists f; isplitr; · ipureintro; rfl
  iexact H
theorem scratch_out (c : Dev nD) (Z : Vec F S8x2048 .f32) :
    (owns (c : Thread nD τ) (Memref.whole cc0_scratch0) fullShare Z : sProp 𝕄)
      ⊢ iprop(∃ f : Buf (Elt F) ((c : Thread nD τ).loc cc0_scratch0), ((c : Thread nD τ).loc cc0_scratch0) ↦{fullShare} f) := by
  rw [owns_whole_eq]; iintro ⟨%f, -, H⟩; iexists f; iexact H

end Cert.KernelIdeal.Gen

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.ChunkCols.lean ====
/-
  One trip's chunk restated: eight columns, one per query, each the masked row sums of the moduli of that query's row
  against the trip's 512 entity rows; the columns set side by side, subtracted from twelve, and transposed.
-/
import proofs.«138440_j8924942041236_2_alg».proof.Proof.Chunk
import proofs.«138440_j8924942041236_2_alg».proof.Proof.LibColumn
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.ValueIdx

variable {F : FTy → Type} [FloatOps F]

/-- One query's column for one trip: for each of the trip's 512 entity rows (the two halves `v6`, `v8`), the sum over
    the 512 dimensions of sqrt((x1 - v6)^2 + (x2 - v8)^2), kept where the row mask `v15` is set and zero elsewhere. -/
def col (v15 : IVec S512x1 1) (v6 v8 : Vec F S512x512 .f32) (x1 x2 : Vec F S1x512 .f32) : FVec F S512x1 .f32 :=
  select v15
    (shapeCast S512x1 (multiReduction .add [1] S512
      (sqrt (addf
        (mulf (subf (broadcastTo S512x512 (shapeCast S1x512 x1 shapeCasts_S1x512_S1x512) broadcasts_S1x512_S512x512) v6)
              (subf (broadcastTo S512x512 (shapeCast S1x512 x1 shapeCasts_S1x512_S1x512) broadcasts_S1x512_S512x512) v6))
        (mulf (subf (broadcastTo S512x512 (shapeCast S1x512 x2 shapeCasts_S1x512_S1x512) broadcasts_S1x512_S512x512) v8)
              (subf (broadcastTo S512x512 (shapeCast S1x512 x2 shapeCasts_S1x512_S1x512) broadcasts_S1x512_S512x512) v8))))
      0x00000000#32 reduces_S512x512_S512 (.inl rfl) rfl) shapeCasts_S512_S512x1)
    (broadcast S512x1 (Scalar.ofBits .f32 0x00000000#32))

/-- The eight columns set side by side into (512, 8), subtracted from twelve, transposed to (8, 512). -/
def outer (c0 c1 c2 c3 c4 c5 c6 c7 : FVec F S512x1 .f32) : FVec F S8x512 .f32 :=
  shapeCast S8x512 (transpose S8x512 [1, 0]
    (subf (broadcast S512x8 (Scalar.ofBits .f32 0x41400000#32))
      (concatenate S512x8 1 [⟨S512x1, c0⟩, ⟨S512x1, c1⟩, ⟨S512x1, c2⟩, ⟨S512x1, c3⟩, ⟨S512x1, c4⟩, ⟨S512x1, c5⟩, ⟨S512x1, c6⟩, ⟨S512x1, c7⟩]
        concatenates_S512x1_S512x1_S512x1_S512x1_S512x1_S512x1_S512x1_S512x1_S512x8_d1))
    transposes_S512x8_p1_0_S8x512) shapeCasts_S8x512_S8x512

/-- The real halves of the trip's entity rows: rows 512k .. 512k+511, columns 0 .. 511 of the tile. -/
abbrev entRe (X3 : Vec F S2048x1024 .f32) (k : Fin k0_t1_loop.trips) : Vec F S512x512 .f32 :=
  View.ld X3 (Rect.unit (s := S2048x1024) (k0_off1 k) S512x512.size (k0_off1_inb k))
/-- The imaginary halves: the same rows, columns 512 .. 1023. -/
abbrev entIm (X3 : Vec F S2048x1024 .f32) (k : Fin k0_t1_loop.trips) : Vec F S512x512 .f32 :=
  View.ld X3 (Rect.unit (s := S2048x1024) (k0_off2 k) S512x512.size (k0_off2_inb k))

/-- The chunk is the eight queries' columns laid out: each of the trip's intermediate values is one query's column,
    and the last query's column is computed inside the final value. -/
theorem chunk_eq (arg0 : BitVec 32) (X1 X2 : Vec F S8x512 .f32) (X3 : Vec F S2048x1024 .f32) (k : Fin k0_t1_loop.trips) :
    chunk arg0 X1 X2 X3 k
      = outer
          (col (k0_pay2 arg0 0#32 1#32 k) (entRe X3 k) (entIm X3 k)
            (View.ld X1 (Rect.unit (s := S8x512) ![0, 0] S1x512.size inb_S8x512_S1x512_0_0)) (View.ld X2 (Rect.unit (s := S8x512) ![0, 0] S1x512.size inb_S8x512_S1x512_0_0)))
          (col (k0_pay2 arg0 0#32 1#32 k) (entRe X3 k) (entIm X3 k)
            (View.ld X1 (Rect.unit (s := S8x512) ![1, 0] S1x512.size inb_S8x512_S1x512_1_0)) (View.ld X2 (Rect.unit (s := S8x512) ![1, 0] S1x512.size inb_S8x512_S1x512_1_0)))
          (col (k0_pay2 arg0 0#32 1#32 k) (entRe X3 k) (entIm X3 k)
            (View.ld X1 (Rect.unit (s := S8x512) ![2, 0] S1x512.size inb_S8x512_S1x512_2_0)) (View.ld X2 (Rect.unit (s := S8x512) ![2, 0] S1x512.size inb_S8x512_S1x512_2_0)))
          (col (k0_pay2 arg0 0#32 1#32 k) (entRe X3 k) (entIm X3 k)
            (View.ld X1 (Rect.unit (s := S8x512) ![3, 0] S1x512.size inb_S8x512_S1x512_3_0)) (View.ld X2 (Rect.unit (s := S8x512) ![3, 0] S1x512.size inb_S8x512_S1x512_3_0)))
          (col (k0_pay2 arg0 0#32 1#32 k) (entRe X3 k) (entIm X3 k)
            (View.ld X1 (Rect.unit (s := S8x512) ![4, 0] S1x512.size inb_S8x512_S1x512_4_0)) (View.ld X2 (Rect.unit (s := S8x512) ![4, 0] S1x512.size inb_S8x512_S1x512_4_0)))
          (col (k0_pay2 arg0 0#32 1#32 k) (entRe X3 k) (entIm X3 k)
            (View.ld X1 (Rect.unit (s := S8x512) ![5, 0] S1x512.size inb_S8x512_S1x512_5_0)) (View.ld X2 (Rect.unit (s := S8x512) ![5, 0] S1x512.size inb_S8x512_S1x512_5_0)))
          (col (k0_pay2 arg0 0#32 1#32 k) (entRe X3 k) (entIm X3 k)
            (View.ld X1 (Rect.unit (s := S8x512) ![6, 0] S1x512.size inb_S8x512_S1x512_6_0)) (View.ld X2 (Rect.unit (s := S8x512) ![6, 0] S1x512.size inb_S8x512_S1x512_6_0)))
          (col (k0_pay2 arg0 0#32 1#32 k) (entRe X3 k) (entIm X3 k)
            (View.ld X1 (Rect.unit (s := S8x512) ![7, 0] S1x512.size inb_S8x512_S1x512_7_0)) (View.ld X2 (Rect.unit (s := S8x512) ![7, 0] S1x512.size inb_S8x512_S1x512_7_0))) := rfl

end Cert.KernelIdeal.Gen

end
-- ==== Proof.ChunkValue.lean ====
/-
  The chunk's two layers read at an index, on the extended reals: a query's column at row r is the masked sum over the
  512 dimensions of the moduli; the laid-out chunk at (b, r) is twelve minus column b at row r.
-/
import proofs.«138440_j8924942041236_2_alg».proof.Proof.ChunkCols
import proofs.«138440_j8924942041236_2_alg».proof.Proof.LibColumn
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.ValueIdx

variable {F : FTy → Type} [FloatOps F]

/-- A query's column at row `r`: where the mask is set, the sum over d of sqrt((x1(d) - v6(r, d))^2 + (x2(d) - v8(r, d))^2);
    elsewhere zero. The lane sum is a sum over the 512 lanes; the row (1, 512) broadcast down the 512 rows reads its one row. -/
theorem col_apply (v15 : IVec S512x1 1) (v6 v8 : Vec Ideal S512x512 .f32) (x1 x2 : Vec Ideal S1x512 .f32) (r : Fin 512) :
    col (F := Ideal) v15 v6 v8 x1 x2 (ix2 r (0 : Fin 1))
      = Scalar.select (v15 (ix2 r (0 : Fin 1)))
          (∑ d : Fin 512, Ideal.sqrt ((x1 (ix2 (0 : Fin 1) d) - v6 (ix2 r d)) * (x1 (ix2 (0 : Fin 1) d) - v6 (ix2 r d))
              + (x2 (ix2 (0 : Fin 1) d) - v8 (ix2 r d)) * (x2 (ix2 (0 : Fin 1) d) - v8 (ix2 r d))))
          (Ideal.ofBits .f32 0x00000000#32) := by
  unfold col
  rw [select_apply]
  refine congrArg (fun a => Scalar.select (v15 (ix2 r (0 : Fin 1))) a _) ?_
  refine (Cert.Lib.Column.shapeCast_a_a1_apply _ shapeCasts_S512_S512x1 r (0 : Fin 1)).trans ?_
  refine (Ideal.multiReduction_add_single _ 0x00000000#32 reduces_S512x512_S512 (.inl rfl) rfl (ix1 r)).trans ?_
  refine Finset.sum_congr rfl fun d _ => ?_
  have hl : reduces_S512x512_S512.lift (ix1 r) d = ix2 r d :=
    funext fun a => Fin.ext (by match a with | ⟨0, _⟩ => rfl | ⟨1, _⟩ => rfl)
  have hA : broadcastTo S512x512 (shapeCast S1x512 x1 shapeCasts_S1x512_S1x512) broadcasts_S1x512_S512x512 (ix2 r d) = x1 (ix2 (0 : Fin 1) d) := by
    rw [shapeCast_self]; exact broadcastTo_1b_ab_apply x1 broadcasts_S1x512_S512x512 r d
  have hB : broadcastTo S512x512 (shapeCast S1x512 x2 shapeCasts_S1x512_S1x512) broadcasts_S1x512_S512x512 (ix2 r d) = x2 (ix2 (0 : Fin 1) d) := by
    rw [shapeCast_self]; exact broadcastTo_1b_ab_apply x2 broadcasts_S1x512_S512x512 r d
  rw [hl, ← hA, ← hB]
  rfl

/-- The laid-out chunk at (b, r) is twelve minus column b at row r: the transpose swaps the coordinates, and the
    concatenation along the columns reads piece b. -/
theorem outer_apply (c0 c1 c2 c3 c4 c5 c6 c7 : FVec Ideal S512x1 .f32) (b : Fin 8) (r : Fin 512) :
    outer (F := Ideal) c0 c1 c2 c3 c4 c5 c6 c7 (ix2 b r)
      = Ideal.ofBits .f32 0x41400000#32 - (![c0, c1, c2, c3, c4, c5, c6, c7] b) (ix2 r (0 : Fin 1)) := by
  unfold outer
  rw [shapeCast_self]
  refine (transpose_ix2_apply _ transposes_S512x8_p1_0_S8x512 b r).trans ?_
  rw [subf_apply, broadcast_apply]
  refine congrArg (fun a => Ideal.ofBits .f32 0x41400000#32 - a) ?_
  fin_cases b
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨0, by decide⟩ : Fin 8)) 0 (by simp only [List.length_cons, List.length_nil]; omega) S512x1 c0 rfl rfl 0 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨1, by decide⟩ : Fin 8)) 1 (by simp only [List.length_cons, List.length_nil]; omega) S512x1 c1 rfl rfl 1 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨2, by decide⟩ : Fin 8)) 2 (by simp only [List.length_cons, List.length_nil]; omega) S512x1 c2 rfl rfl 2 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨3, by decide⟩ : Fin 8)) 3 (by simp only [List.length_cons, List.length_nil]; omega) S512x1 c3 rfl rfl 3 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨4, by decide⟩ : Fin 8)) 4 (by simp only [List.length_cons, List.length_nil]; omega) S512x1 c4 rfl rfl 4 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨5, by decide⟩ : Fin 8)) 5 (by simp only [List.length_cons, List.length_nil]; omega) S512x1 c5 rfl rfl 5 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨6, by decide⟩ : Fin 8)) 6 (by simp only [List.length_cons, List.length_nil]; omega) S512x1 c6 rfl rfl 6 rfl (ix2 r (0 : Fin 1))
      (fun b' hb' => by match b' with
        | ⟨0, _⟩ => rfl
        | ⟨1, _⟩ => exact absurd rfl hb') rfl
  · exact concatenate_apply_piece (t := S512x8) (1 : Fin 2) ([⟨S512x1, c0⟩, ⟨S512x1, c1⟩, ⟨S512x1, c2⟩, ⟨S512x1, c3⟩, ⟨S512x1, c4⟩, ⟨S512x1, c5⟩, ⟨S512x1, c6⟩, ⟨S512x1, c7⟩] : List ((s : Shape) × (s.Idx → Ideal .f32))) concatenates_S512x1_S512x1_S512x1_S512x1_S512x1_S512x1_S512x1_S512x1_S512x8_d1
      (ix2 r (⟨7, by decide⟩ : Fin 8)) 7 (by simp only [List.length_cons, List.length_nil]; omega) S512x1 c7 rfl rfl 7 rfl (ix2 r (0 : Fin 1))
      (fun b' hb' => by match b' with
        | ⟨0, _⟩ => rfl
        | ⟨1, _⟩ => exact absurd rfl hb') rfl

end Cert.KernelIdeal.Gen

end
-- ==== Proof.ChunkIdx.lean ====
/-
  One run of the body read at an index, on the extended reals: at (b, n) of the (8, 2048) output block — n below the
  number of tile rows inside the entity array — the body leaves twelve minus the sum over the 512 dimensions of the
  modulus of (query row b) - (tile row n). The row mask is set exactly on those rows, so the masked sum is the sum.
-/
import proofs.«138440_j8924942041236_2_alg».proof.Proof.ChunkValue
import Idealize.ShloMosaic.Lib.Affine
import proofs.«138440_j8924942041236_2_alg».proof.Proof.LibColumn
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.ValueIdx

variable {F : FTy → Type} [FloatOps F]

/-- The row mask of trip `k` at tile `t` holds at row `r` when the global row 2048 t + 512 k + r is below 30000: the
    32-bit sum does not wrap (t < 15, k < 4, r < 512), and the signed comparison is the comparison of the numbers. -/
theorem mask_holds (t : Nat) (ht : t < 15) (k : Fin k0_t1_loop.trips) (r : Fin 512) (h : 2048 * t + 512 * k.val + r.val < 30000) :
    k0_pay2 (BitVec.ofNat 32 t) 0#32 1#32 k (ix2 r (0 : Fin 1)) = 1#1 := by
  have hk : k.val < 4 := lt_of_lt_of_le k.isLt (le_of_eq trips_eq)
  have hr : r.val < 512 := r.isLt
  unfold k0_pay2
  show IntOp.cmpi .slt (IntOp.addi (Scalar.addi (Scalar.muli (BitVec.ofNat 32 t) 2048#32) (Scalar.muli (Scf.iv 0#32 1#32 k.val) 512#32))
      (iota .tc S512x1 32 [0] iota_S512x1_d0_w32 (ix2 r (0 : Fin 1)))) 30000#32 = 1#1
  rw [iota_single_apply]
  exact Affine.slt_holds (ea := ((t : Int) * 2048 + ((0 : Int) + 1 * (k.val : Int)) * 512) + (r.val : Int)) (eb := 30000)
    (Affine.addi
      (Affine.addi
        (Affine.muli (Affine.ofNat t ⟨rfl, by omega⟩) (Affine.ofNat 2048 ⟨rfl, by norm_num⟩) ⟨rfl, by omega, by omega⟩)
        (Affine.muli (Affine.iv (Affine.ofNat 0 ⟨rfl, by norm_num⟩) (Affine.ofNat 1 ⟨rfl, by norm_num⟩) k.val ⟨rfl, by omega, by omega⟩)
          (Affine.ofNat 512 ⟨rfl, by norm_num⟩) ⟨rfl, by omega, by omega⟩)
        ⟨rfl, by omega, by omega⟩)
      (Affine.ofNat r.val ⟨rfl, by omega⟩) ⟨rfl, by omega, by omega⟩)
    (Affine.ofNat 30000 ⟨rfl, by norm_num⟩) (by omega)

/-- Row `b` of a query block, loaded as a (1, 512) row, reads the block at (b, d). -/
theorem ld_row (X : Vec Ideal S8x512 .f32) (b : Fin 8) (inb : ∀ a, (![b.val, 0] : Fin 2 → Nat) a + S1x512.size a ≤ S8x512.size a) (d : Fin 512) :
    View.ld X (Rect.unit (s := S8x512) ![b.val, 0] S1x512.size inb) (ix2 (0 : Fin 1) d) = X (ix2 b d) :=
  congrArg X (funext fun a => Fin.ext (by
    match a with
    | ⟨0, _⟩ => show b.val + 1 * 0 = b.val; omega
    | ⟨1, _⟩ => show 0 + 1 * d.val = d.val; omega))

/-- The real halves trip `k` loads read the tile at row 512 k + r, column d. -/
theorem ld_entRe (X3 : Vec Ideal S2048x1024 .f32) (k : Fin k0_t1_loop.trips) (r d : Fin 512) (n : Fin 2048) (hn : n.val = 512 * k.val + r.val) :
    entRe X3 k (ix2 r d) = X3 (ix2 n ⟨d.val, by omega⟩) := by
  have e0 : k0_off1 k 0 = 512 * k.val := by have := congrFun (k0_off1_eq k) 0; simpa using this
  have e1 : k0_off1 k 1 = 0 := by have := congrFun (k0_off1_eq k) 1; simpa using this
  refine congrArg X3 (funext fun a => Fin.ext ?_)
  match a with
  | ⟨0, _⟩ => show k0_off1 k 0 + 1 * r.val = n.val; omega
  | ⟨1, _⟩ => show k0_off1 k 1 + 1 * d.val = d.val; omega

/-- The imaginary halves read the same row, column 512 + d. -/
theorem ld_entIm (X3 : Vec Ideal S2048x1024 .f32) (k : Fin k0_t1_loop.trips) (r d : Fin 512) (n : Fin 2048) (hn : n.val = 512 * k.val + r.val) :
    entIm X3 k (ix2 r d) = X3 (ix2 n ⟨512 + d.val, by omega⟩) := by
  have e0 : k0_off2 k 0 = 512 * k.val := by have := congrFun (k0_off2_eq k) 0; simpa using this
  have e1 : k0_off2 k 1 = 512 := by have := congrFun (k0_off2_eq k) 1; simpa using this
  refine congrArg X3 (funext fun a => Fin.ext ?_)
  match a with
  | ⟨0, _⟩ => show k0_off2 k 0 + 1 * r.val = n.val; omega
  | ⟨1, _⟩ => show k0_off2 k 1 + 1 * d.val = 512 + d.val; omega

/-- One query's column, for the trip and row that hold tile row `n`, with the mask set: the sum of the moduli. -/
theorem col_at (t : Nat) (ht : t < 15) (X1 X2 : Vec Ideal S8x512 .f32) (X3 : Vec Ideal S2048x1024 .f32) (b : Fin 8)
    (inb : ∀ a, (![b.val, 0] : Fin 2 → Nat) a + S1x512.size a ≤ S8x512.size a)
    (k : Fin k0_t1_loop.trips) (r : Fin 512) (n : Fin 2048) (hn : n.val = 512 * k.val + r.val) (h : 2048 * t + n.val < 30000) :
    col (F := Ideal) (k0_pay2 (BitVec.ofNat 32 t) 0#32 1#32 k) (entRe X3 k) (entIm X3 k)
        (View.ld X1 (Rect.unit (s := S8x512) ![b.val, 0] S1x512.size inb)) (View.ld X2 (Rect.unit (s := S8x512) ![b.val, 0] S1x512.size inb))
        (ix2 r (0 : Fin 1))
      = ∑ d : Fin 512, Ideal.sqrt ((X1 (ix2 b d) - X3 (ix2 n ⟨d.val, by omega⟩)) * (X1 (ix2 b d) - X3 (ix2 n ⟨d.val, by omega⟩))
          + (X2 (ix2 b d) - X3 (ix2 n ⟨512 + d.val, by omega⟩)) * (X2 (ix2 b d) - X3 (ix2 n ⟨512 + d.val, by omega⟩))) := by
  rw [col_apply, mask_holds t ht k r (by omega), select_one]
  refine Finset.sum_congr rfl fun d _ => ?_
  rw [ld_row X1 b inb d, ld_row X2 b inb d, ld_entRe X3 k r d n hn, ld_entIm X3 k r d n hn]

/-- THE BODY AT AN INDEX: at (b, n) with tile row `n` inside the array, the output block holds twelve minus the sum
    over d of the modulus of (X1(b, d) - X3(n, d), X2(b, d) - X3(n, 512 + d)). -/
theorem bodyOut_apply (t : Nat) (ht : t < 15) (X1 X2 : Vec Ideal S8x512 .f32) (X3 : Vec Ideal S2048x1024 .f32) (b : Fin 8) (n : Fin 2048)
    (h : 2048 * t + n.val < 30000) :
    bodyOut (F := Ideal) (BitVec.ofNat 32 t) X1 X2 X3 (ix2 b n)
      = Ideal.ofBits .f32 0x41400000#32 - ∑ d : Fin 512, Ideal.sqrt ((X1 (ix2 b d) - X3 (ix2 n ⟨d.val, by omega⟩)) * (X1 (ix2 b d) - X3 (ix2 n ⟨d.val, by omega⟩))
          + (X2 (ix2 b d) - X3 (ix2 n ⟨512 + d.val, by omega⟩)) * (X2 (ix2 b d) - X3 (ix2 n ⟨512 + d.val, by omega⟩))) := by
  have hn : n.val < 2048 := n.isLt
  have hk : n.val / 512 < k0_t1_loop.trips := by rw [trips_eq]; omega
  have hrow : n.val = 512 * (⟨n.val / 512, hk⟩ : Fin k0_t1_loop.trips).val + (⟨n.val % 512, Nat.mod_lt _ (by decide)⟩ : Fin 512).val := by
    show n.val = 512 * (n.val / 512) + n.val % 512; omega
  show chunk (F := Ideal) (BitVec.ofNat 32 t) X1 X2 X3 ⟨n.val / 512, hk⟩ (ix2 b ⟨n.val % 512, Nat.mod_lt _ (by decide)⟩) = _
  rw [chunk_eq]
  refine (outer_apply _ _ _ _ _ _ _ _ b ⟨n.val % 512, Nat.mod_lt _ (by decide)⟩).trans ?_
  refine congrArg (fun a => Ideal.ofBits .f32 0x41400000#32 - a) ?_
  fin_cases b
  · exact col_at t ht X1 X2 X3 (0 : Fin 8) inb_S8x512_S1x512_0_0 _ _ n hrow h
  · exact col_at t ht X1 X2 X3 (1 : Fin 8) inb_S8x512_S1x512_1_0 _ _ n hrow h
  · exact col_at t ht X1 X2 X3 (2 : Fin 8) inb_S8x512_S1x512_2_0 _ _ n hrow h
  · exact col_at t ht X1 X2 X3 (3 : Fin 8) inb_S8x512_S1x512_3_0 _ _ n hrow h
  · exact col_at t ht X1 X2 X3 (4 : Fin 8) inb_S8x512_S1x512_4_0 _ _ n hrow h
  · exact col_at t ht X1 X2 X3 (5 : Fin 8) inb_S8x512_S1x512_5_0 _ _ n hrow h
  · exact col_at t ht X1 X2 X3 (6 : Fin 8) inb_S8x512_S1x512_6_0 _ _ n hrow h
  · exact col_at t ht X1 X2 X3 (7 : Fin 8) inb_S8x512_S1x512_7_0 _ _ n hrow h

end Cert.KernelIdeal.Gen

end
-- ==== Proof.Spec.lean ====
/-
  The specification: the score of query b against entity n is
      12 - sum over d < 512 of sqrt( (re(b,d) - e(n,d))^2 + (im(b,d) - e(n,512+d))^2 ),
  read on the extended reals, where re, im are the two (8, 512) arrays of rotated head embeddings and e is the
  (30000, 1024) entity array whose rows hold the real half in columns 0..511 and the imaginary half in 512..1023.
  Both programs compute re and im by the same host operations, so they enter here as given arrays.
-/
import Idealize.ShloMosaic.PureOps.Ideal
import Idealize.ShloMosaic.Lib.ValueIdx

noncomputable section

namespace Cert.Spec

open Idealize.ShloMosaic Idealize.ShloMosaic.ValueIdx

/-- Entity `n`'s real part at dimension `d`: column `d` of row `n`. -/
abbrev eRe (n : Fin 30000) (d : Fin 512) : (⟨2, ![30000, 1024]⟩ : Shape).Idx := ix2 n ⟨d.val, by omega⟩
/-- Entity `n`'s imaginary part at dimension `d`: column `512 + d` of row `n`. -/
abbrev eIm (n : Fin 30000) (d : Fin 512) : (⟨2, ![30000, 1024]⟩ : Shape).Idx := ix2 n ⟨512 + d.val, by omega⟩

/-- The complex modulus of (rotated head b) - (entity n) at dimension d. -/
def modulus (re im : FVec Ideal ⟨2, ![8, 512]⟩ .f32) (e : FVec Ideal ⟨2, ![30000, 1024]⟩ .f32)
    (b : Fin 8) (n : Fin 30000) (d : Fin 512) : Ideal .f32 :=
  Ideal.sqrt ((re (ix2 b d) - e (eRe n d)) * (re (ix2 b d) - e (eRe n d))
    + (im (ix2 b d) - e (eIm n d)) * (im (ix2 b d) - e (eIm n d)))

/-- The distance of query b to entity n: the moduli summed over the 512 dimensions. -/
def dist (re im : FVec Ideal ⟨2, ![8, 512]⟩ .f32) (e : FVec Ideal ⟨2, ![30000, 1024]⟩ .f32)
    (b : Fin 8) (n : Fin 30000) : Ideal .f32 :=
  ∑ d : Fin 512, modulus re im e b n d

/-- The (8, 30000) array of scores: twelve minus the distance. -/
def score (re im : FVec Ideal ⟨2, ![8, 512]⟩ .f32) (e : FVec Ideal ⟨2, ![30000, 1024]⟩ .f32) :
    FVec Ideal ⟨2, ![8, 30000]⟩ .f32 :=
  fun j => Ideal.ofBits .f32 0x41400000#32 - dist re im e (j 0) (j 1)

end Cert.Spec

end
-- ==== Proof.FrameI.lean ====
/-
  The idealized program's run, on the extended reals: at every grid point the body leaves, on the columns of the output
  block that lie inside the result array, the scores of the point's 2048 entities (fewer at the last point) against the
  eight queries; the points' blocks tile the result array; so the run ends with the result array holding the score of
  the two rotated arrays and the entity array, and the four arguments unchanged.
-/
import proofs.«138440_j8924942041236_2_alg».proof.Proof.Gen.KernelIdeal.Frame
import proofs.«138440_j8924942041236_2_alg».proof.Proof.Gen.KernelIdeal.Skeleton
import proofs.«138440_j8924942041236_2_alg».proof.Proof.Gen.KernelIdeal.Loops
import proofs.«138440_j8924942041236_2_alg».proof.Proof.BodyI
import proofs.«138440_j8924942041236_2_alg».proof.Proof.ChunkIdx
import proofs.«138440_j8924942041236_2_alg».proof.Proof.Spec
import Idealize.ShloMosaic.Lib.Pipeline.Frame
import Idealize.ShloMosaic.Lib.Pipeline.Value
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-- The scores of the arrays the region is launched with: the two rotated arrays the host operations wrote, and the
    entity array. -/
def scoreV (c : Dev nD) : S8x30000.Idx → Elt Ideal .f32 :=
  Cert.Spec.score (V m c main_v22 : S8x512.Idx → Elt Ideal .f32) (V m c main_v25 : S8x512.Idx → Elt Ideal .f32)
    (V m c main_arg2 : S30000x1024.Idx → Elt Ideal .f32)

/-! ## The windows' geometry, decided over the fifteen points -/

/-- The block index maps and the cut sizes: the query windows sit at block (0, 0); the entity tile at point t is block
    (t, 0), the output block (0, t); both are cut along the entity axis to what is left of the 30000 rows. -/
theorem idx_facts : ∀ t : Fin cfg0.N,
    win0_0.index t 0 = 0 ∧ win0_0.index t 1 = 0 ∧ win0_1.index t 0 = 0 ∧ win0_1.index t 1 = 0
    ∧ win0_2.index t 0 = t.val ∧ win0_2.index t 1 = 0 ∧ win0_3.index t 0 = 0 ∧ win0_3.index t 1 = t.val
    ∧ ((win0_2.xsize (grid0.coords t) 0 = 2048 ∧ 2048 * t.val + 2048 ≤ 30000) ∨ (win0_2.xsize (grid0.coords t) 0 + 2048 * t.val = 30000 ∧ win0_2.xsize (grid0.coords t) 0 ≤ 2048))
    ∧ win0_2.xsize (grid0.coords t) 1 = 1024
    ∧ win0_3.xsize (grid0.coords t) 0 = 8
    ∧ ((win0_3.xsize (grid0.coords t) 1 = 2048 ∧ 2048 * t.val + 2048 ≤ 30000) ∨ (win0_3.xsize (grid0.coords t) 1 + 2048 * t.val = 30000 ∧ win0_3.xsize (grid0.coords t) 1 ≤ 2048))
    ∧ ((grid0.coords t) 0).val = t.val :=
  (by decide +kernel : ∀ t : Fin grid0.N, _)

/-- The first query window's block is the whole array of real parts. -/
theorem iblk0_apply (c : Dev nD) (t : Fin cfg0.N) (b : Fin 8) (d : Fin 512) :
    (iblk m c 0 t : S8x512.Idx → Elt Ideal .f32) (ix2 b d) = (V m c main_v22 : S8x512.Idx → Elt Ideal .f32) (ix2 b d) := by
  obtain ⟨h00, h01, -⟩ := idx_facts t
  unfold iblk
  show V m c (Pipeline.arrRef spec0 0) (((cfg0.win 0).blk t).view.emb (ix2 b d)) = _
  refine congrArg (V m c main_v22) (funext fun a => Fin.ext ?_)
  match a with
  | ⟨0, _⟩ => show win0_0.index t 0 * 8 + 1 * b.val = b.val; rw [h00]; omega
  | ⟨1, _⟩ => show win0_0.index t 1 * 512 + 1 * d.val = d.val; rw [h01]; omega

/-- The second's is the whole array of imaginary parts. -/
theorem iblk1_apply (c : Dev nD) (t : Fin cfg0.N) (b : Fin 8) (d : Fin 512) :
    (iblk m c 1 t : S8x512.Idx → Elt Ideal .f32) (ix2 b d) = (V m c main_v25 : S8x512.Idx → Elt Ideal .f32) (ix2 b d) := by
  obtain ⟨-, -, h10, h11, -⟩ := idx_facts t
  unfold iblk
  show V m c (Pipeline.arrRef spec0 1) (((cfg0.win 1).blk t).view.emb (ix2 b d)) = _
  refine congrArg (V m c main_v25) (funext fun a => Fin.ext ?_)
  match a with
  | ⟨0, _⟩ => show win0_1.index t 0 * 8 + 1 * b.val = b.val; rw [h10]; omega
  | ⟨1, _⟩ => show win0_1.index t 1 * 512 + 1 * d.val = d.val; rw [h11]; omega

/-- The entity tile's buffer at point t, on a row inside the array: row n of the buffer is row 2048 t + n of the array,
    whatever fills the buffer past the array's end. -/
theorem tile_apply (c : Dev nD) (t : Fin cfg0.N) (d2 : S2048x1024.Idx → Elt Ideal .f32) (n : Fin 2048) (col : Fin 1024)
    (h : 2048 * t.val + n.val < 30000) :
    win0_2.fill (grid0.coords t) d2 (iblk m c 2 t) (ix2 n col)
      = (V m c main_arg2 : S30000x1024.Idx → Elt Ideal .f32) (ix2 ⟨2048 * t.val + n.val, h⟩ col) := by
  obtain ⟨-, -, -, -, h20, h21, -, -, x20, x21, -⟩ := idx_facts t
  have hn : n.val < 2048 := n.isLt
  have hm : win0_2.moved (grid0.coords t) (ix2 n col) = true := (win0_2.moved_iff _ _).mpr fun a => by
    match a with
    | ⟨0, _⟩ =>
      show n.val < win0_2.xsize (grid0.coords t) 0
      rcases x20 with ⟨e, _⟩ | ⟨e, _⟩ <;> omega
    | ⟨1, _⟩ => show col.val < win0_2.xsize (grid0.coords t) 1; rw [x21]; exact col.isLt
  unfold Pipeline.Window.fill
  rw [dif_pos hm]
  unfold iblk
  show V m c (Pipeline.arrRef spec0 2) (((cfg0.win 2).blk t).view.emb _) = _
  refine congrArg (V m c main_arg2) (funext fun a => Fin.ext ?_)
  match a with
  | ⟨0, _⟩ => show win0_2.index t 0 * 2048 + 1 * n.val = 2048 * t.val + n.val; rw [h20]; omega
  | ⟨1, _⟩ => show win0_2.index t 1 * 1024 + 1 * col.val = col.val; rw [h21]; omega

/-! ## What the body leaves inside the array -/

/-- THE BLOCK: on the columns of the output block inside the result array, what the body leaves at point t — from the
    query blocks and the entity tile as fetched, whatever lies past the array's end in the tile's buffer — is the score
    array's block at t. The mask keeps exactly the rows inside the array, and those rows are fetched words. -/
theorem cut_bodyOut (c : Dev nD) (t : Fin cfg0.N) (d2 : S2048x1024.Idx → Elt Ideal .f32) :
    win0_3.cut (grid0.coords t)
        (bodyOut (F := Ideal) (BitVec.ofNat 32 ((grid0.coords t) 0).val) (iblk m c 0 t) (iblk m c 1 t) (win0_2.fill (grid0.coords t) d2 (iblk m c 2 t)))
      = (win0_3.blk t).view.read (Elt Ideal) (scoreV m c) := by
  obtain ⟨-, -, -, -, -, -, h30, h31, -, -, x30, x31, hc⟩ := idx_facts t
  have htN : t.val < 15 := lt_of_lt_of_le t.isLt (le_of_eq N_0)
  funext j
  have hj0 : (j 0).val < 8 := by have : (j 0).val < win0_3.xsize (grid0.coords t) 0 := (j 0).isLt; rwa [x30] at this
  have hj1' : (j 1).val < win0_3.xsize (grid0.coords t) 1 := (j 1).isLt
  have hj1 : (j 1).val < 2048 ∧ 2048 * t.val + (j 1).val < 30000 := by rcases x31 with ⟨e, _⟩ | ⟨e, _⟩ <;> omega
  have hx : win0_3.xinj (grid0.coords t) j = ix2 (⟨(j 0).val, hj0⟩ : Fin 8) (⟨(j 1).val, hj1.1⟩ : Fin 2048) :=
    funext fun a => Fin.ext (by match a with | ⟨0, _⟩ => rfl | ⟨1, _⟩ => rfl)
  have he : (win0_3.blk t).view.emb j = ix2 (⟨(j 0).val, hj0⟩ : Fin 8) (⟨2048 * t.val + (j 1).val, hj1.2⟩ : Fin 30000) :=
    funext fun a => Fin.ext (by
      match a with
      | ⟨0, _⟩ => show win0_3.index t 0 * 8 + 1 * (j 0).val = (j 0).val; rw [h30]; omega
      | ⟨1, _⟩ => show win0_3.index t 1 * 2048 + 1 * (j 1).val = 2048 * t.val + (j 1).val; rw [h31]; omega)
  show bodyOut (F := Ideal) (BitVec.ofNat 32 ((grid0.coords t) 0).val) (iblk m c 0 t) (iblk m c 1 t) (win0_2.fill (grid0.coords t) d2 (iblk m c 2 t))
      (win0_3.xinj (grid0.coords t) j) = scoreV m c ((win0_3.blk t).view.emb j)
  rw [hx, he, hc, bodyOut_apply t.val htN _ _ _ _ _ hj1.2]
  unfold scoreV Cert.Spec.score Cert.Spec.dist Cert.Spec.modulus
  refine congrArg (fun a => Ideal.ofBits .f32 0x41400000#32 - a) (Finset.sum_congr rfl fun d _ => ?_)
  rw [iblk0_apply, iblk1_apply, tile_apply m c t d2 _ _ hj1.2, tile_apply m c t d2 _ _ hj1.2]

/-! ## The proof data -/

/-- The proof data on core `c`: the arrays as the region finds them; after the body the two query blocks' buffers at
    their blocks, the entity tile's buffer at its block (rows past the array's end at a filler nothing reads), the
    output block at the score array's block (columns past the array's end likewise); the class invariant (the scratch
    at some contents); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits (F := Ideal) .f32 0#32) (iblk m c 2 t)
    | ⟨3, _⟩ => win0_3.fill (grid0.coords t) (fun _ => Scalar.ofBits (F := Ideal) .f32 0#32) ((win0_3.blk t).view.read (Elt Ideal) (scoreV m c))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => Scalar.ofBits (F := Ideal) .f32 0#32) (iblk m c 2 t) := by dsimp only [dats]
theorem after0_3 (c : Dev nD) (t : Fin cfg0.N) :
    (dats m 0 c).after 3 t = win0_3.fill (grid0.coords t) (fun _ => Scalar.ofBits (F := Ideal) .f32 0#32) ((win0_3.blk t).view.read (Elt Ideal) (scoreV m c)) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) :
    (dats m 0 c).before 2 t d = win0_2.fill (grid0.coords t) d (iblk m c 2 t) := by
  unfold Dat.before; rw [if_pos (fetch0_2 t)]; rfl

/-! ## The body obligation -/

theorem body_obligation (c : Dev nD) :
    BodyObligationLoose (dats m 0 c) (defs₀ (F := Ideal)) Variants.none () Set.univ := fun t => by
  rw [bigSep_W0, bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f5, H5⟩, Hr⟩, Ho, ⟨%d0, H0⟩, ⟨%d1, H1⟩, ⟨%d2, H2⟩, ⟨%d3, H3⟩⟩
  rw [before0_0 m c t d0, before0_1 m c t d1, before0_2 m c t d2]
  iapply (sound_kernel (F := Ideal) c Set.univ (grid0.coords t) _ _ _ _ _ _ _ _ (Memref.whole cc0_scratch0) (Memref.isWhole_whole _)
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H5]
  · iexists f5; iapply (scratch_in (F := Ideal) c f5); iexact H5
  iintro ⟨H0, H1, H2, H4, ⟨%Z5, H5⟩⟩
  isplitl [H5 Hr]
  · isplitl [H5]; · iapply (scratch_out (F := Ideal) c Z5); iexact H5
    iexact Hr
  isplitl [Ho]; · iexact Ho
  isplitl [H0]; · rw [after0_0]; iexact H0
  isplitl [H1]; · rw [after0_1]; iexact H1
  isplitl [H2]
  · iexists d2; rw [after0_2, Window.cut_fill]; iexact H2
  · iexists (bodyOut (F := Ideal) (BitVec.ofNat 32 ((grid0.coords t) 0).val) (iblk m c 0 t) (iblk m c 1 t) (win0_2.fill (grid0.coords t) d2 (iblk m c 2 t)))
    rw [after0_3, Window.cut_fill, ← cut_bodyOut m c t d2, Window.fill_cut]
    iexact H4

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The output blocks tile the result array: column n lies in point n / 2048's block. -/
theorem cover3 (i : S8x30000.Idx) : ∃ t : Fin cfg0.N, (cfg0.win 3).flush t = true ∧ i ∈ ((cfg0.win 3).blk t).view.set := by
  have hi0 : (i 0).val < 8 := idx2_lt0 i
  have hi1 : (i 1).val < 30000 := idx2_lt1 i
  have ht : (i 1).val / 2048 < cfg0.N := by rw [show cfg0.N = 15 from N_0]; omega
  obtain ⟨t, htv⟩ : ∃ t : Fin cfg0.N, t.val = (i 1).val / 2048 := ⟨⟨_, ht⟩, rfl⟩
  refine ⟨t, flush0_3 t, ?_⟩
  obtain ⟨-, -, -, -, -, -, h30, h31, -, -, x30, x31, -⟩ := idx_facts t
  show i ∈ ((View.whole main_v26).slice (win0_3.rect t)).set
  rw [View.set_slice_whole, Rect.mem_set_unit]
  intro a
  match a with
  | ⟨0, _⟩ =>
    show win0_3.index t 0 * 8 ≤ (i 0).val ∧ (i 0).val < win0_3.index t 0 * 8 + win0_3.xsize (grid0.coords t) 0
    rw [h30, x30]; omega
  | ⟨1, _⟩ =>
    show win0_3.index t 1 * 2048 ≤ (i 1).val ∧ (i 1).val < win0_3.index t 1 * 2048 + win0_3.xsize (grid0.coords t) 1
    rw [h31]; rcases x31 with ⟨e, _⟩ | ⟨e, _⟩ <;> omega

/-- THE RESULT ARRAY after the run is the score array. -/
theorem final_score (c : Dev nD) : (dats m 0 c).arrAt 3 cfg0.N = scoreV m c :=
  (dats m 0 c).arrAt_eq_of_cover 3 (scoreV m c)
    (fun t _ => by
      show win0_3.cut (grid0.coords t) ((dats m 0 c).after 3 t) = _
      rw [after0_3, Window.cut_fill])
    (cover3)

/-- THE RUN, read at the result and the arguments: every weakly fair execution terminates, nothing faults, the result
    array ends holding the scores and the four argument arrays what they held. -/
theorem run_score : θ_run defs (onTc (τ := τ) (main (F := Ideal))) ⟨m, fun _ => 0, ρ⟩ (fun r => ∀ c : Dev nD,
      r.2.mem ((c.tc : Thread nD τ).loc main_v26) = scoreV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final_score m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans (V_main_arg2 m c)),
      ((h c).2 main_arg3 (Pipeline.mem_restRefs_of main_arg3 (by decide) (by decide))).trans (V_main_arg3 m c)⟩) (run_main m ρ)

end Cert.KernelIdeal.Gen

end
-- ==== Proof.Ref.lean ====
/-
  The reference's result is the specification's score of the two rotated arrays it computes and the entity array:
  its broadcasts read re(b, d) and e(n, d), e(n, 512 + d) at the index (b, n, d), and its sum over the last axis is the
  sum over d.
-/
import proofs.«138440_j8924942041236_2_alg».proof.Proof.Gen.ReferenceIdeal.Read
import proofs.«138440_j8924942041236_2_alg».proof.Proof.Spec
import Idealize.ShloMosaic.PureOps.Ideal.Laws

noncomputable section

namespace Cert.RefValue

open Cert.ReferenceIdeal Cert.ReferenceIdeal.Read Idealize.ShloMosaic Idealize.ShloMosaic.ValueIdx

/-- Index by index, the reference's last stage is twelve minus the sum over d of the modulus at (b, n, d). -/
theorem ref_score (x0 x1 : (⟨S8, .i32⟩ : BufTy).Contents (Elt Ideal)) (x2 : (⟨S30000x1024, .f32⟩ : BufTy).Contents (Elt Ideal))
    (x3 : (⟨S1000x512, .f32⟩ : BufTy).Contents (Elt Ideal)) :
    val_main_v44 (F := Ideal) x0 x1 x2 x3
      = Cert.Spec.score (val_main_v22 (F := Ideal) x0 x1 x2 x3) (val_main_v25 (F := Ideal) x0 x1 x2 x3) x2 := by
  funext i
  obtain ⟨b, n, rfl⟩ : ∃ (b : Fin 8) (n : Fin 30000), i = ix2 b n := ⟨i 0, i 1, eq_ix2 i⟩
  have e30 (k : Fin 512) : idx_main_v28 (idx_main_v30 (idx_main_v42 (ix2 b n) k)) = ix2 b k :=
    funext fun a => Fin.ext (by match a with | ⟨0, _⟩ => rfl | ⟨1, _⟩ => rfl)
  have e35 (k : Fin 512) : idx_main_v33 (idx_main_v35 (idx_main_v42 (ix2 b n) k)) = ix2 b k :=
    funext fun a => Fin.ext (by match a with | ⟨0, _⟩ => rfl | ⟨1, _⟩ => rfl)
  have e31 (k : Fin 512) : idx_main_v26 (idx_main_v29 (idx_main_v31 (idx_main_v42 (ix2 b n) k))) = Cert.Spec.eRe n k :=
    funext fun a => Fin.ext (by match a with | ⟨0, _⟩ => rfl | ⟨1, _⟩ => rfl)
  have e36 (k : Fin 512) : idx_main_v27 (idx_main_v34 (idx_main_v36 (idx_main_v42 (ix2 b n) k))) = Cert.Spec.eIm n k :=
    funext fun a => Fin.ext (by match a with | ⟨0, _⟩ => rfl | ⟨1, _⟩ => rfl)
  rw [val_main_v44_apply, val_main_v43_apply, val_main_cst_4_apply, val_main_v42_apply, val_main_cst_3_apply]
  unfold Cert.Spec.score Cert.Spec.dist
  rw [Ideal.subf_def, Ideal.ofBits_def, Ideal.ofBits_def, Ideal.ofBits_zero_f32, zero_add]
  refine congrArg (_ - ·) (Finset.sum_congr rfl fun k _ => ?_)
  rw [val_main_v41_apply, val_main_v40_apply, val_main_v38_apply, val_main_v39_apply, val_main_v32_apply, val_main_v37_apply,
    val_main_v30_apply, val_main_v31_apply, val_main_v28_apply, val_main_v29_apply, val_main_v26_apply,
    val_main_v35_apply, val_main_v36_apply, val_main_v33_apply, val_main_v34_apply, val_main_v27_apply, e30, e35, e31, e36]
  simp only [Ideal.hostUnary_sqrt_def, Ideal.addf_def, Ideal.mulf_def, Ideal.subf_def]
  rfl

end Cert.RefValue

end
-- ==== Proof.HostGlue.lean ====
/-
  The two rotated head-embedding arrays the kernel's region is launched with are the reference's: both programs compute
  them from the four arguments by the same host operations (gather, split, phase, cosine and sine, the complex product).
-/
import proofs.«138440_j8924942041236_2_alg».proof.Proof.Gen.KernelIdeal.Frame
import proofs.«138440_j8924942041236_2_alg».proof.Proof.Gen.ReferenceIdeal.Read
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 1000000 in
/-- The real parts of the rotated heads, as the region finds them, are the reference's stage of the same name. -/
theorem V_re (c : Dev nD) :
    (V m c main_v22 : S8x512.Idx → Elt F .f32)
      = Cert.ReferenceIdeal.Read.val_main_v22 (F := F) (m ((c : Thread nD τ).loc main_arg0)) (m ((c : Thread nD τ).loc main_arg1))
          (m ((c : Thread nD τ).loc main_arg2)) (m ((c : Thread nD τ).loc main_arg3)) := by
  dsimp only [V, hostOps0]; after_results_simp; rfl

set_option maxHeartbeats 1000000 in
/-- The imaginary parts likewise. -/
theorem V_im (c : Dev nD) :
    (V m c main_v25 : S8x512.Idx → Elt F .f32)
      = Cert.ReferenceIdeal.Read.val_main_v25 (F := F) (m ((c : Thread nD τ).loc main_arg0)) (m ((c : Thread nD τ).loc main_arg1))
          (m ((c : Thread nD τ).loc main_arg2)) (m ((c : Thread nD τ).loc main_arg3)) := by
  dsimp only [V, hostOps0]; after_results_simp; rfl

end Cert.KernelIdeal.Gen

end
-- ==== Proof.lean ====
/-
  The kernel scores eight queries against 30000 entities: for query b and entity n,
      12 - sum over d < 512 of sqrt( (re(b,d) - e(n,d))^2 + (im(b,d) - e(n,512+d))^2 ),
  where (re, im) is the query's head embedding rotated by its relation's phase and e is the entity array. Kernel and
  reference build (re, im) by the same host operations. The kernel then walks the entity array in tiles of 2048 rows
  (the last tile has 1328), each tile in four chunks of 512 rows, one query at a time; the reference broadcasts
  everything to (8, 30000, 512) and sums over the last axis. On the extended reals the two are the same function index
  by index: a lane sum and a host sum over the same 512 terms, the same subtraction from twelve; no law is used that
  could fail at an infinity, so the precondition is never opened. The kernel's row mask (global row < 30000) is set on
  every row whose result lands inside the (8, 30000) array, and rows past the array's end are never written back.

  The three frames: the word-level kernel's with its result left unnamed; the idealized kernel's from the run that names
  the result; the reference's from its run. The idealization rewrote nothing, so there is nothing to preserve.
-/
import proofs.«138440_j8924942041236_2_alg».proof.Defs
import proofs.«138440_j8924942041236_2_alg».proof.Proof.Gen.Kernel
import proofs.«138440_j8924942041236_2_alg».proof.Proof.Gen.Kernel.Skeleton
import proofs.«138440_j8924942041236_2_alg».proof.Proof.Gen.Kernel.Loops
import proofs.«138440_j8924942041236_2_alg».proof.Proof.Gen.Kernel.Launch
import proofs.«138440_j8924942041236_2_alg».proof.Proof.Gen.Kernel.Points
import proofs.«138440_j8924942041236_2_alg».proof.Proof.Gen.Kernel.Frame
import proofs.«138440_j8924942041236_2_alg».proof.Proof.Gen.KernelIdeal
import proofs.«138440_j8924942041236_2_alg».proof.Proof.Gen.KernelIdeal.Skeleton
import proofs.«138440_j8924942041236_2_alg».proof.Proof.Gen.KernelIdeal.Loops
import proofs.«138440_j8924942041236_2_alg».proof.Proof.Gen.KernelIdeal.Launch
import proofs.«138440_j8924942041236_2_alg».proof.Proof.Gen.KernelIdeal.Points
import proofs.«138440_j8924942041236_2_alg».proof.Proof.Gen.KernelIdeal.Frame
import proofs.«138440_j8924942041236_2_alg».proof.Proof.Gen.ReferenceIdeal
import proofs.«138440_j8924942041236_2_alg».proof.Proof.Gen.Pre_finite_inputs
import proofs.«138440_j8924942041236_2_alg».proof.Proof.Gen.ReferenceIdeal.Run
import proofs.«138440_j8924942041236_2_alg».proof.Proof.Gen.ReferenceIdeal.Read
import proofs.«138440_j8924942041236_2_alg».proof.Proof.FrameK
import proofs.«138440_j8924942041236_2_alg».proof.Proof.FrameI
import proofs.«138440_j8924942041236_2_alg».proof.Proof.Ref
import proofs.«138440_j8924942041236_2_alg».proof.Proof.HostGlue
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel: its run with the result dropped. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Gen.run_score m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, the kernel's result array and the reference's
    both end at the score of the rotated arrays and the entity array: the kernel's by its run, the reference's by
    reading its broadcasts and its sum at an index; the rotated arrays are the same terms of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.scoreV m c, Cert.KernelIdeal.Gen.run_score m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.RefValue.ref_score, (hagree c).1, (hagree c).2.1, (hagree c).2.2.1, (hagree c).2.2.2]
  unfold Cert.KernelIdeal.Gen.scoreV
  beta_reduce
  rw [Cert.KernelIdeal.Gen.V_re, Cert.KernelIdeal.Gen.V_im, Cert.KernelIdeal.Gen.V_main_arg2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
